-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x14336 : Shape := ⟨2, ![4096, 14336]⟩
abbrev S14336x4096 : Shape := ⟨2, ![14336, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x14336 : S_.BroadcastsInDim S4096x14336 (![] : Fin 0 → Fin S4096x14336.rank)
  reducesTo_S4096x14336_S_d0_1 : S4096x14336.ReducesTo [0, 1] S_
  bcast_S_S14336x4096 : S_.BroadcastsInDim S14336x4096 (![] : Fin 0 → Fin S14336x4096.rank)
  reducesTo_S14336x4096_S_d0_1 : S14336x4096.ReducesTo [0, 1] S_

variable [Facts]

def fn_part1 {F : FTy → Type} [FloatOps F] (main_v13 : IVec S_ 1) (main_v16 : IVec S14336x4096 1) : IVec S_ 1 :=
  let main_c_5 : IVec S_ 1 := constantI S_ 1 1#1
  let main_v17 : IVec S_ 1 := (fun x v => Host.reduce IntOp.andi x v reducesTo_S14336x4096_S_d0_1 h_S_) main_v16 main_c_5
  let main_v18 : IVec S_ 1 := andi main_v13 main_v17
  main_v18

def fn {F : FTy → Type} [FloatOps F] (main_arg0 : FVec F S4096x4096 .f32) (main_arg1 : FVec F S4096x14336 .f32) (main_arg2 : FVec F S4096x14336 .f32) (main_arg3 : FVec F S14336x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x14336 .f32 := Host.absf main_arg1
  let main_cst_0 : FVec F S_ .f32 := constant S_ .f32 0x7F800000#32
  let main_v5 : FVec F S4096x14336 .f32 := broadcastInDim S4096x14336 ![] bcast_S_S4096x14336 main_cst_0
  let main_v6 : IVec S4096x14336 1 := cmpf .olt main_v4 main_v5
  let main_c_1 : IVec S_ 1 := constantI S_ 1 1#1
  let main_v7 : IVec S_ 1 := (fun x v => Host.reduce IntOp.andi x v reducesTo_S4096x14336_S_d0_1 h_S_) main_v6 main_c_1
  let main_v8 : IVec S_ 1 := andi main_v3 main_v7
  let main_v9 : FVec F S4096x14336 .f32 := Host.absf main_arg2
  let main_cst_2 : FVec F S_ .f32 := constant S_ .f32 0x7F800000#32
  let main_v10 : FVec F S4096x14336 .f32 := broadcastInDim S4096x14336 ![] bcast_S_S4096x14336 main_cst_2
  let main_v11 : IVec S4096x14336 1 := cmpf .olt main_v9 main_v10
  let main_c_3 : IVec S_ 1 := constantI S_ 1 1#1
  let main_v12 : IVec S_ 1 := (fun x v => Host.reduce IntOp.andi x v reducesTo_S4096x14336_S_d0_1 h_S_) main_v11 main_c_3
  let main_v13 : IVec S_ 1 := andi main_v8 main_v12
  let main_v14 : FVec F S14336x4096 .f32 := Host.absf main_arg3
  let main_cst_4 : FVec F S_ .f32 := constant S_ .f32 0x7F800000#32
  let main_v15 : FVec F S14336x4096 .f32 := broadcastInDim S14336x4096 ![] bcast_S_S14336x4096 main_cst_4
  let main_v16 : IVec S14336x4096 1 := cmpf .olt main_v14 main_v15
  fn_part1 (F := F) main_v13 main_v16
-- ==== Kernel.lean ====
abbrev S4096x4096 : Shape := ⟨2, ![4096, 4096]⟩
abbrev S4096x14336 : Shape := ⟨2, ![4096, 14336]⟩
abbrev S14336x4096 : Shape := ⟨2, ![14336, 4096]⟩
abbrev S512x4096 : Shape := ⟨2, ![512, 4096]⟩
abbrev S4096x256 : Shape := ⟨2, ![4096, 256]⟩
abbrev S256x4096 : Shape := ⟨2, ![256, 4096]⟩
abbrev S512x256 : Shape := ⟨2, ![512, 256]⟩

abbrev nBuf : Space → Nat
  | .hbm => 9
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S4096x14336, .f32⟩
  | .hbm, ⟨2, _⟩ => ⟨S4096x14336, .f32⟩
  | .hbm, ⟨3, _⟩ => ⟨S14336x4096, .f32⟩
  | .hbm, ⟨4, _⟩ => ⟨S4096x4096, .bf16⟩
  | .hbm, ⟨5, _⟩ => ⟨S4096x14336, .bf16⟩
  | .hbm, ⟨6, _⟩ => ⟨S4096x14336, .bf16⟩
  | .hbm, ⟨7, _⟩ => ⟨S14336x4096, .bf16⟩
  | .hbm, ⟨8, _⟩ => ⟨S4096x4096, .f32⟩
  | .local _ .vmem, ⟨0, _⟩ => ⟨S512x4096, .bf16⟩
  | .local _ .vmem, ⟨1, _⟩ => ⟨S512x4096, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S256x4096, .bf16⟩
  | .local _ .vmem, ⟨7, _⟩ => ⟨S256x4096, .bf16⟩
  | .local _ .vmem, ⟨8, _⟩ => ⟨S512x4096, .f32⟩
  | .local _ .vmem, ⟨9, _⟩ => ⟨S512x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 56], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  dot_S512x4096_S4096x256_S512x256_1_0_0_1_n_n_wf : DotDims.WF S512x4096 S4096x256 S512x256 [1] [0] [0] [1] [] []
  dot_S512x256_S256x4096_S512x4096_1_0_0_1_n_n_wf : DotDims.WF S512x256 S256x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .bf16 = 32 ∨ (Rect.block (s := S4096x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x14336.size a
  hwx0_1 : ∀ i : grid0.Coords, EltTy.bits .bf16 = 32 ∨ (Rect.block (s := S4096x14336) S4096x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S4096x14336.size a
  hwx0_2 : ∀ i : grid0.Coords, EltTy.bits .bf16 = 32 ∨ (Rect.block (s := S4096x14336) S4096x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S14336x4096.size a
  hwx0_3 : ∀ i : grid0.Coords, EltTy.bits .bf16 = 32 ∨ (Rect.block (s := S14336x4096) S256x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x4096.size a ≤ S4096x4096.size a
  hwx0_4 : ∀ i : grid0.Coords, EltTy.bits .f32 = 32 ∨ (Rect.block (s := S4096x4096) S512x4096.size (cc0_transform_4 i) (hinb0_4 i)).WholeWords (EltTy.packing .f32)

variable [Facts₀]

def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf
def dot_S512x256_S256x4096_S512x4096_1_0_0_1_n_n : DotDims S512x256 S256x4096 S512x4096 where
  lhsContracting := [1]
  rhsContracting := [0]
  lhsNonContracting := [0]
  rhsNonContracting := [1]
  lhsBatch := []
  rhsBatch := []
  wf := dot_S512x256_S256x4096_S512x4096_1_0_0_1_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S512x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096x14336 : Shape := ⟨2, ![4096, 14336]⟩
abbrev S14336x4096 : Shape := ⟨2, ![14336, 4096]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x14336, .f32⟩
  | .hbm, ⟨2, _⟩ => ⟨S4096x14336, .f32⟩
  | .hbm, ⟨3, _⟩ => ⟨S14336x4096, .f32⟩
  | .hbm, ⟨4, _⟩ => ⟨S4096x14336, .f32⟩
  | .hbm, ⟨5, _⟩ => ⟨S4096x14336, .f32⟩
  | .hbm, ⟨6, _⟩ => ⟨S4096x14336, .f32⟩
  | .hbm, ⟨7, _⟩ => ⟨S_, .f32⟩
  | .hbm, ⟨8, _⟩ => ⟨S4096x14336, .f32⟩
  | .hbm, ⟨9, _⟩ => ⟨S4096x14336, .f32⟩
  | .hbm, ⟨10, _⟩ => ⟨S_, .f32⟩
  | .hbm, ⟨11, _⟩ => ⟨S4096x14336, .f32⟩
  | .hbm, ⟨12, _⟩ => ⟨S4096x14336, .f32⟩
  | .hbm, ⟨13, _⟩ => ⟨S4096x14336, .f32⟩
  | .hbm, ⟨14, _⟩ => ⟨S4096x14336, .f32⟩
  | .hbm, ⟨15, _⟩ => ⟨S4096x14336, .f32⟩
  | .hbm, ⟨16, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩

abbrev nD : Nat := 1
abbrev τ : Topo := Topo.v7x

variable {F : FTy → Type} [FloatOps F]

class Facts₀ : Prop where
  bcast_S_S4096x14336 : S_.BroadcastsInDim S4096x14336 (![] : Fin 0 → Fin S4096x14336.rank)
  dot_S4096x4096_S4096x14336_S4096x14336_1_0_0_1_n_n_wf : DotDims.WF S4096x4096 S4096x14336 S4096x14336 [1] [0] [0] [1] [] []
  dot_S4096x14336_S14336x4096_S4096x4096_1_0_0_1_n_n_wf : DotDims.WF S4096x14336 S14336x4096 S4096x4096 [1] [0] [0] [1] [] []

variable [Facts₀]

def dot_S4096x4096_S4096x14336_S4096x14336_1_0_0_1_n_n : DotDims S4096x4096 S4096x14336 S4096x14336 where
  lhsContracting := [1]
  rhsContracting := [0]
  lhsNonContracting := [0]
  rhsNonContracting := [1]
  lhsBatch := []
  rhsBatch := []
  wf := dot_S4096x4096_S4096x14336_S4096x14336_1_0_0_1_n_n_wf
def dot_S4096x14336_S14336x4096_S4096x4096_1_0_0_1_n_n : DotDims S4096x14336 S14336x4096 S4096x4096 where
  lhsContracting := [1]
  rhsContracting := [0]
  lhsNonContracting := [0]
  rhsNonContracting := [1]
  lhsBatch := []
  rhsBatch := []
  wf := dot_S4096x14336_S14336x4096_S4096x4096_1_0_0_1_n_n_wf

class Facts : Prop extends Facts₀ where

variable [Facts]
-- ==== Proof.Swiglu.lean ====
/-
  The mathematics both programs compute: a gated MLP  out = (silu(x·Wg) ⊙ (x·Wu)) · Wd  over the extended reals,
  with silu(g) = g · logistic g and logistic g = 1 / (1 + e^(-g)).

  Arrays are read at pairs of NATURALS (zero past their extents), so that every quantity below is a total
  function of naturals and a sum over an axis is a sum over `Finset.range`. For a token row `p` and a hidden
  unit `f`:  gate p f = Σ_d X p d · Wg d f,  up p f = Σ_d X p d · Wu d f,  hid p f = gate · logistic gate · up,
  and for an output column `q`:  out p q = Σ_{f < 14336} hid p f · Wd f q.

  The hidden axis is cut in 56 tiles of 256 units: `tile p q s` is the part of that sum over the units
  256·s … 256·s + 255. The one law used is that a sum over `range (J·K)` is the sum over the `J` tiles of the
  sums over each tile's `K` members (`sum_range_tiles`): only commutativity and associativity of +, which hold
  on the extended reals with their infinities, so nothing here asks the arrays to be finite.
-/
import Idealize.ShloMosaic.PureOps.Ideal
import Idealize.ShloMosaic.Lib.ValueIdx

noncomputable section

namespace Cert.Swiglu

open Idealize.ShloMosaic Finset

/-- A rank-2 array read at a pair of naturals: its entry there, and zero past its extents. -/
def rd {A B : ℕ} (x : (⟨2, ![A, B]⟩ : Shape).Idx → EReal) (p q : ℕ) : EReal :=
  if h : p < A ∧ q < B then x (ValueIdx.ix2 ⟨p, h.1⟩ ⟨q, h.2⟩) else 0

/-- At the coordinates of an index the reading is the array's entry at that index. -/
theorem rd_of {A B : ℕ} (x : (⟨2, ![A, B]⟩ : Shape).Idx → EReal) (i : (⟨2, ![A, B]⟩ : Shape).Idx) (p q : ℕ)
    (hp : (i 0).val = p) (hq : (i 1).val = q) : rd x p q = x i := by
  subst hp; subst hq
  unfold rd
  rw [dif_pos ⟨ValueIdx.idx2_lt0 i, ValueIdx.idx2_lt1 i⟩]
  exact congrArg x (ValueIdx.eq_ix2 i).symm

section Spec

variable (X Wg Wu Wd : ℕ → ℕ → EReal)

/-- The gate pre-activation of token `p` at hidden unit `f`: row `p` of `X` against column `f` of `Wg`. -/
def gate (p f : ℕ) : EReal := ∑ d ∈ range 4096, X p d * Wg d f

/-- The up projection of token `p` at hidden unit `f`: row `p` of `X` against column `f` of `Wu`. -/
def up (p f : ℕ) : EReal := ∑ d ∈ range 4096, X p d * Wu d f

/-- The hidden activation: silu of the gate (the gate times its logistic) times the up projection. -/
def hid (p f : ℕ) : EReal := gate X Wg p f * Ideal.logistic (gate X Wg p f) * up X Wu p f

/-- The part of the down projection that the `s`-th tile of 256 hidden units contributes to entry (p, q). -/
def tile (p q s : ℕ) : EReal := ∑ j ∈ range 256, hid X Wg Wu p (256 * s + j) * Wd (256 * s + j) q

/-- The down projection: entry (p, q) of the result. -/
def out (p q : ℕ) : EReal := ∑ f ∈ range 14336, hid X Wg Wu p f * Wd f q

end Spec

/-- A sum over `J·K` consecutive naturals is the sum, over `J` tiles, of the sums over each tile's `K` members. -/
theorem sum_range_tiles {β : Type*} [AddCommMonoid β] (K : ℕ) (a : ℕ → β) : ∀ J : ℕ,
    ∑ i ∈ range (J * K), a i = ∑ s ∈ range J, ∑ j ∈ range K, a (K * s + j)
  | 0 => by simp
  | J + 1 => by
    rw [add_mul, one_mul, sum_range_add, sum_range_tiles K a J, sum_range_succ, Nat.mul_comm J K]

/-- The down projection is the sum of its 56 tiles' parts (started from zero, as an accumulator is). -/
theorem out_eq_tiles (X Wg Wu Wd : ℕ → ℕ → EReal) (p q : ℕ) :
    out X Wg Wu Wd p q = 0 + ∑ s ∈ range 56, tile X Wg Wu Wd p q s := by
  rw [zero_add]
  exact sum_range_tiles 256 (fun f => hid X Wg Wu p f * Wd f q) 56

end Cert.Swiglu

end
-- ==== Proof.RefAt.lean ====
/-
  The reference program read at an index. Its result is one host contraction over the 14336 hidden units of
  (gate · (1 / (1 + e^(-gate)))) · up against Wd, the gate and the up projection themselves contractions over the
  4096 input features. At the ideal values the quotient 1 / (1 + e^(-g)) is the logistic function by definition, the
  literal 0x3F800000 is the number one, and each contraction is a plain sum; so entry (p, q) of the reference's
  result is `Swiglu.out` of the four argument arrays read at naturals.
-/
import proofs.«106914_j45887430590500_2_alg».proof.Proof.Gen.ReferenceIdeal.Read
import proofs.«106914_j45887430590500_2_alg».proof.Proof.Swiglu

noncomputable section

namespace Cert.RefAt

open Cert.ReferenceIdeal Cert.ReferenceIdeal.Read Idealize.ShloMosaic Cert.Swiglu Finset

/-- The f32 word 0x3F800000 is the number one. -/
theorem one_f32 : Ideal.ofBits .f32 0x3F800000#32 = 1 := by
  simp [Ideal.ofBits, Ideal.ieee, -EReal.coe_mul]; norm_num

/-- The first contraction at (p, f) is the gate: row p of the input against column f of the gate weights. -/
theorem gate_at (x0 : (⟨S4096x4096, .f32⟩ : BufTy).Contents (Elt Ideal)) (x1 : (⟨S4096x14336, .f32⟩ : BufTy).Contents (Elt Ideal))
    (j : S4096x14336.Idx) :
    val_main_v0 (F := Ideal) x0 x1 j = gate (rd (A := 4096) (B := 4096) x0) (rd (A := 4096) (B := 14336) x1) (j 0).val (j 1).val := by
  rw [val_main_v0_apply]
  unfold gate
  rw [Finset.sum_range]
  refine Finset.sum_congr rfl fun d _ => ?_
  rw [rd_of (A := 4096) (B := 4096) x0 (lidx_main_v0 j d) (j 0).val d.val rfl rfl,
    rd_of (A := 4096) (B := 14336) x1 (ridx_main_v0 j d) d.val (j 1).val rfl rfl]

/-- The second contraction at (p, f) is the up projection. -/
theorem up_at (x0 : (⟨S4096x4096, .f32⟩ : BufTy).Contents (Elt Ideal)) (x2 : (⟨S4096x14336, .f32⟩ : BufTy).Contents (Elt Ideal))
    (j : S4096x14336.Idx) :
    val_main_v2 (F := Ideal) x0 x2 j = up (rd (A := 4096) (B := 4096) x0) (rd (A := 4096) (B := 14336) x2) (j 0).val (j 1).val := by
  rw [val_main_v2_apply]
  unfold up
  rw [Finset.sum_range]
  refine Finset.sum_congr rfl fun d _ => ?_
  rw [rd_of (A := 4096) (B := 4096) x0 (lidx_main_v2 j d) (j 0).val d.val rfl rfl,
    rd_of (A := 4096) (B := 14336) x2 (ridx_main_v2 j d) d.val (j 1).val rfl rfl]

/-- The product the last contraction consumes, at (p, f), is the hidden activation: the reference's
    gate · (1 / (1 + e^(-gate))) is the gate times its logistic. -/
theorem hid_at (x0 : (⟨S4096x4096, .f32⟩ : BufTy).Contents (Elt Ideal)) (x1 x2 : (⟨S4096x14336, .f32⟩ : BufTy).Contents (Elt Ideal))
    (j : S4096x14336.Idx) :
    val_main_v3 (F := Ideal) x0 x1 x2 j
      = hid (rd (A := 4096) (B := 4096) x0) (rd (A := 4096) (B := 14336) x1) (rd (A := 4096) (B := 14336) x2) (j 0).val (j 1).val := by
  rw [val_main_v3_apply, val_main_v1_apply, val_main_call0_v5_apply, val_main_call0_v4_apply, val_main_call0_cst_0_apply,
    val_main_call0_v3_apply, val_main_call0_v2_apply, val_main_call0_cst_apply, val_main_call0_v1_apply,
    val_main_call0_v0_apply, up_at, gate_at]
  unfold hid Ideal.logistic
  simp only [Ideal.mulf_def, Ideal.hostDivf_def, Ideal.addf_def, Ideal.hostUnary_exp_def, Ideal.hostNegf_def, Ideal.negf_def,
    Ideal.ofBits_def, one_f32]

/-- Entry (p, q) of the reference's result is the down projection of the hidden activations. -/
theorem out_at (x0 : (⟨S4096x4096, .f32⟩ : BufTy).Contents (Elt Ideal)) (x1 x2 : (⟨S4096x14336, .f32⟩ : BufTy).Contents (Elt Ideal))
    (x3 : (⟨S14336x4096, .f32⟩ : BufTy).Contents (Elt Ideal)) (i : S4096x4096.Idx) :
    val_main_v4 (F := Ideal) x0 x1 x2 x3 i
      = out (rd (A := 4096) (B := 4096) x0) (rd (A := 4096) (B := 14336) x1) (rd (A := 4096) (B := 14336) x2)
          (rd (A := 14336) (B := 4096) x3) (i 0).val (i 1).val := by
  rw [val_main_v4_apply]
  unfold out
  rw [Finset.sum_range]
  refine Finset.sum_congr rfl fun k _ => ?_
  rw [hid_at, rd_of (A := 14336) (B := 4096) x3 (ridx_main_v4 i k) k.val (i 1).val rfl rfl]

end Cert.RefAt

end
-- ==== Proof.KernelAt.lean ====
/-
  What one grid point's body adds to the output block, read at an entry. The body multiplies the point's 512 token
  rows by a 256-column tile of the gate weights and of the up weights (each product a contraction over the 4096
  input features), forms gate · logistic(gate) · up entry by entry, multiplies that [512, 256] block by the matching
  256-row tile of the down weights (a contraction over the tile's 256 hidden units) and adds the result to what the
  output block held. At the ideal values a matrix product into a zero accumulator is a plain sum and a change of
  float format is the identity, so entry (p, q) of the stored block is

      acc (p, q) + Σ_{j < 256} (g j · logistic (g j) · u j) · wd (j, q),
      g j = Σ_{d < 4096} x (p, d) · wg (d, j),   u j = Σ_{d < 4096} x (p, d) · wu (d, j).
-/
import proofs.«106914_j45887430590500_2_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelAt

open Cert.KernelIdeal Cert.KernelIdeal.Gen Idealize.ShloMosaic Idealize.ShloMosaic.ValueIdx

/-! ## The [512, 4096] × [4096, 256] product at an entry -/

theorem lhsA_0 (i : S512x256.Idx) (q : dot_S512x4096_S4096x256_S512x256_1_0_0_1_n_n.contr.Idx) :
    (dot_S512x4096_S4096x256_S512x256_1_0_0_1_n_n.lhsIdx i q 0).val = (i 0).val := by
  unfold DotDims.lhsIdx
  rw [dif_neg (show ¬(0 : Fin S512x4096.rank) ∈ dot_S512x4096_S4096x256_S512x256_1_0_0_1_n_n.lhsBatch by decide),
    dif_pos (show (0 : Fin S512x4096.rank) ∈ dot_S512x4096_S4096x256_S512x256_1_0_0_1_n_n.lhsNonContracting by decide)]
  rfl
theorem lhsA_1 (i : S512x256.Idx) (q : dot_S512x4096_S4096x256_S512x256_1_0_0_1_n_n.contr.Idx) :
    (dot_S512x4096_S4096x256_S512x256_1_0_0_1_n_n.lhsIdx i q 1).val = (q ⟨0, by decide⟩).val :=
  dot_S512x4096_S4096x256_S512x256_1_0_0_1_n_n.lhsIdx_val_of_single rfl i q
theorem rhsA_0 (i : S512x256.Idx) (q : dot_S512x4096_S4096x256_S512x256_1_0_0_1_n_n.contr.Idx) :
    (dot_S512x4096_S4096x256_S512x256_1_0_0_1_n_n.rhsIdx i q 0).val = (q ⟨0, by decide⟩).val :=
  dot_S512x4096_S4096x256_S512x256_1_0_0_1_n_n.rhsIdx_val_of_single rfl i q
theorem rhsA_1 (i : S512x256.Idx) (q : dot_S512x4096_S4096x256_S512x256_1_0_0_1_n_n.contr.Idx) :
    (dot_S512x4096_S4096x256_S512x256_1_0_0_1_n_n.rhsIdx i q 1).val = (i 1).val := by
  unfold DotDims.rhsIdx
  rw [dif_neg (show ¬(1 : Fin S4096x256.rank) ∈ dot_S512x4096_S4096x256_S512x256_1_0_0_1_n_n.rhsBatch by decide),
    dif_pos (show (1 : Fin S4096x256.rank) ∈ dot_S512x4096_S4096x256_S512x256_1_0_0_1_n_n.rhsNonContracting by decide)]
  rfl

/-- Rows of a [512, 4096] block against columns of a [4096, 256] tile, into zero: entry (p, j) is the sum over the
    4096 input features. -/
theorem mmA_apply (l : FVec Ideal S512x4096 .bf16) (r : FVec Ideal S4096x256 .bf16) (p : Fin 512) (j : Fin 256) :
    matmul dot_S512x4096_S4096x256_S512x256_1_0_0_1_n_n none l r (constant S512x256 .f32 0x00000000#32) (ix2 p j)
      = ∑ d : Fin 4096, l (ix2 p d) * r (ix2 d j) := by
  simp only [matmul]
  rw [Ideal.matmul_constant_zero_apply,
    ← Equiv.sum_comp (contrEquiv1 dot_S512x4096_S4096x256_S512x256_1_0_0_1_n_n 4096 rfl rfl).symm]
  refine Finset.sum_congr rfl fun k _ => ?_
  have hk := contrEquiv1_symm_val dot_S512x4096_S4096x256_S512x256_1_0_0_1_n_n 4096 rfl rfl k
  have el : dot_S512x4096_S4096x256_S512x256_1_0_0_1_n_n.lhsIdx (ix2 p j)
      ((contrEquiv1 dot_S512x4096_S4096x256_S512x256_1_0_0_1_n_n 4096 rfl rfl).symm k) = ix2 p k :=
    funext fun a => Fin.ext (by
      match a with
      | ⟨0, _⟩ => exact lhsA_0 _ _
      | ⟨1, _⟩ => exact (lhsA_1 _ _).trans hk)
  have er : dot_S512x4096_S4096x256_S512x256_1_0_0_1_n_n.rhsIdx (ix2 p j)
      ((contrEquiv1 dot_S512x4096_S4096x256_S512x256_1_0_0_1_n_n 4096 rfl rfl).symm k) = ix2 k j :=
    funext fun a => Fin.ext (by
      match a with
      | ⟨0, _⟩ => exact (rhsA_0 _ _).trans hk
      | ⟨1, _⟩ => exact rhsA_1 _ _)
  rw [el, er]

/-! ## The [512, 256] × [256, 4096] product at an entry -/

theorem lhsB_0 (i : S512x4096.Idx) (q : dot_S512x256_S256x4096_S512x4096_1_0_0_1_n_n.contr.Idx) :
    (dot_S512x256_S256x4096_S512x4096_1_0_0_1_n_n.lhsIdx i q 0).val = (i 0).val := by
  unfold DotDims.lhsIdx
  rw [dif_neg (show ¬(0 : Fin S512x256.rank) ∈ dot_S512x256_S256x4096_S512x4096_1_0_0_1_n_n.lhsBatch by decide),
    dif_pos (show (0 : Fin S512x256.rank) ∈ dot_S512x256_S256x4096_S512x4096_1_0_0_1_n_n.lhsNonContracting by decide)]
  rfl
theorem lhsB_1 (i : S512x4096.Idx) (q : dot_S512x256_S256x4096_S512x4096_1_0_0_1_n_n.contr.Idx) :
    (dot_S512x256_S256x4096_S512x4096_1_0_0_1_n_n.lhsIdx i q 1).val = (q ⟨0, by decide⟩).val :=
  dot_S512x256_S256x4096_S512x4096_1_0_0_1_n_n.lhsIdx_val_of_single rfl i q
theorem rhsB_0 (i : S512x4096.Idx) (q : dot_S512x256_S256x4096_S512x4096_1_0_0_1_n_n.contr.Idx) :
    (dot_S512x256_S256x4096_S512x4096_1_0_0_1_n_n.rhsIdx i q 0).val = (q ⟨0, by decide⟩).val :=
  dot_S512x256_S256x4096_S512x4096_1_0_0_1_n_n.rhsIdx_val_of_single rfl i q
theorem rhsB_1 (i : S512x4096.Idx) (q : dot_S512x256_S256x4096_S512x4096_1_0_0_1_n_n.contr.Idx) :
    (dot_S512x256_S256x4096_S512x4096_1_0_0_1_n_n.rhsIdx i q 1).val = (i 1).val := by
  unfold DotDims.rhsIdx
  rw [dif_neg (show ¬(1 : Fin S256x4096.rank) ∈ dot_S512x256_S256x4096_S512x4096_1_0_0_1_n_n.rhsBatch by decide),
    dif_pos (show (1 : Fin S256x4096.rank) ∈ dot_S512x256_S256x4096_S512x4096_1_0_0_1_n_n.rhsNonContracting by decide)]
  rfl

/-- Rows of a [512, 256] block against columns of a [256, 4096] tile, into zero: entry (p, q) is the sum over the
    tile's 256 hidden units. -/
theorem mmB_apply (l : FVec Ideal S512x256 .bf16) (r : FVec Ideal S256x4096 .bf16) (p : Fin 512) (q : Fin 4096) :
    matmul dot_S512x256_S256x4096_S512x4096_1_0_0_1_n_n none l r (constant S512x4096 .f32 0x00000000#32) (ix2 p q)
      = ∑ j : Fin 256, l (ix2 p j) * r (ix2 j q) := by
  simp only [matmul]
  rw [Ideal.matmul_constant_zero_apply,
    ← Equiv.sum_comp (contrEquiv1 dot_S512x256_S256x4096_S512x4096_1_0_0_1_n_n 256 rfl rfl).symm]
  refine Finset.sum_congr rfl fun k _ => ?_
  have hk := contrEquiv1_symm_val dot_S512x256_S256x4096_S512x4096_1_0_0_1_n_n 256 rfl rfl k
  have el : dot_S512x256_S256x4096_S512x4096_1_0_0_1_n_n.lhsIdx (ix2 p q)
      ((contrEquiv1 dot_S512x256_S256x4096_S512x4096_1_0_0_1_n_n 256 rfl rfl).symm k) = ix2 p k :=
    funext fun a => Fin.ext (by
      match a with
      | ⟨0, _⟩ => exact lhsB_0 _ _
      | ⟨1, _⟩ => exact (lhsB_1 _ _).trans hk)
  have er : dot_S512x256_S256x4096_S512x4096_1_0_0_1_n_n.rhsIdx (ix2 p q)
      ((contrEquiv1 dot_S512x256_S256x4096_S512x4096_1_0_0_1_n_n 256 rfl rfl).symm k) = ix2 k q :=
    funext fun a => Fin.ext (by
      match a with
      | ⟨0, _⟩ => exact (rhsB_0 _ _).trans hk
      | ⟨1, _⟩ => exact rhsB_1 _ _)
  rw [el, er]

/-! ## The stored block at an entry -/

/-- The first store of a run's first point writes zeros. -/
theorem pay1_apply (i : S512x4096.Idx) : k0_pay1 (F := Ideal) i = 0 :=
  Ideal.ofBits_zero_f32

/-- The accumulating store at entry (p, q): what the block held, plus the tile's part of the down projection. -/
theorem pay2_apply (x0 : FVec Ideal S512x4096 .bf16) (x1 x2 : FVec Ideal S4096x256 .bf16) (acc : FVec Ideal S512x4096 .f32)
    (x3 : FVec Ideal S256x4096 .bf16) (p : Fin 512) (q : Fin 4096) :
    k0_pay2 (F := Ideal) x0 x1 x2 acc x3 (ix2 p q)
      = acc (ix2 p q) + ∑ j : Fin 256,
          ((∑ d : Fin 4096, x0 (ix2 p d) * x1 (ix2 d j)) * Ideal.logistic (∑ d : Fin 4096, x0 (ix2 p d) * x1 (ix2 d j))
            * (∑ d : Fin 4096, x0 (ix2 p d) * x2 (ix2 d j))) * x3 (ix2 j q) := by
  unfold k0_pay2
  simp only [shapeCast_self]
  show acc (ix2 p q) + _ = acc (ix2 p q) + _
  refine congrArg (acc (ix2 p q) + ·) ?_
  refine (mmB_apply _ x3 p q).trans ?_
  refine Finset.sum_congr rfl fun j _ => ?_
  refine congrArg (· * x3 (ix2 j q)) ?_
  show matmul dot_S512x4096_S4096x256_S512x256_1_0_0_1_n_n none x0 x1 (constant S512x256 .f32 0x00000000#32) (ix2 p j)
      * Ideal.logistic (matmul dot_S512x4096_S4096x256_S512x256_1_0_0_1_n_n none x0 x1 (constant S512x256 .f32 0x00000000#32) (ix2 p j))
      * matmul dot_S512x4096_S4096x256_S512x256_1_0_0_1_n_n none x0 x2 (constant S512x256 .f32 0x00000000#32) (ix2 p j) = _
  rw [mmA_apply x0 x1 p j, mmA_apply x0 x2 p j]

end Cert.KernelAt

end
-- ==== Proof.Blocks.lean ====
/-
  What the four input windows hold at a grid point. The grid is 8 × 56 points, point t = 56·r + s working on token
  tile r (rows 512·r … 512·r + 511) and hidden tile s (units 256·s … 256·s + 255). Before the region the host narrows
  each argument to bf16, which at the ideal values is the identity, so each window's array IS an argument array, and
  an entry of a window's block is the argument's entry at block index × block size + the coordinate inside the block:

      input block   (p, d) ↦ x  (512·r + p, d)          gate tile (d, j) ↦ wg (d, 256·s + j)
      down tile     (j, q) ↦ wd (256·s + j, q)          up tile   (d, j) ↦ wu (d, 256·s + j)
-/
import proofs.«106914_j45887430590500_2_alg».proof.Proof.Gen.KernelIdeal.Frame
import proofs.«106914_j45887430590500_2_alg».proof.Proof.Swiglu
import Idealize.ShloMosaic.Lib.StableHlo.Run
import Idealize.ShloMosaic.Lib.Pipeline.Value

noncomputable section

namespace Cert.Blocks

open Cert.KernelIdeal Cert.KernelIdeal.Gen Idealize.ShloMosaic Idealize.ShloMosaic.TcCoe Idealize.SL.Sem
open Idealize.ShloMosaic.ValueIdx Cert.Swiglu

variable (m : (ℓ : Loc nD τ sig) → Buf (Elt Ideal) ℓ)

/-- The four argument arrays read at naturals. -/
abbrev X (c : Dev nD) : ℕ → ℕ → EReal := rd (A := 4096) (B := 4096) (m ((c : Thread nD τ).loc main_arg0))
abbrev Wg (c : Dev nD) : ℕ → ℕ → EReal := rd (A := 4096) (B := 14336) (m ((c : Thread nD τ).loc main_arg1))
abbrev Wu (c : Dev nD) : ℕ → ℕ → EReal := rd (A := 4096) (B := 14336) (m ((c : Thread nD τ).loc main_arg2))
abbrev Wd (c : Dev nD) : ℕ → ℕ → EReal := rd (A := 14336) (B := 4096) (m ((c : Thread nD τ).loc main_arg3))

/-- The printed index maps, decided over the grid: the input and output blocks follow the token tile t / 56, the
    three weight tiles the hidden tile t % 56. -/
theorem idx_in : ∀ t : Fin cfg0.N,
    win0_0.index t (0 : Fin 2) = t.val / 56 ∧ win0_0.index t (1 : Fin 2) = 0
    ∧ win0_1.index t (0 : Fin 2) = 0 ∧ win0_1.index t (1 : Fin 2) = t.val % 56
    ∧ win0_2.index t (0 : Fin 2) = 0 ∧ win0_2.index t (1 : Fin 2) = t.val % 56
    ∧ win0_3.index t (0 : Fin 2) = t.val % 56 ∧ win0_3.index t (1 : Fin 2) = 0 :=
  (by decide +kernel : ∀ t : Fin grid0.N, _)

/-! ## The windows' arrays are the arguments -/

theorem V_v0 (c : Dev nD) : (V m c main_v0 : S4096x4096.Idx → EReal) = m ((c : Thread nD τ).loc main_arg0) := by
  dsimp only [V, hostOps0]; after_results; rfl
theorem V_v1 (c : Dev nD) : (V m c main_v1 : S4096x14336.Idx → EReal) = m ((c : Thread nD τ).loc main_arg1) := by
  dsimp only [V, hostOps0]; after_results; rfl
theorem V_v2 (c : Dev nD) : (V m c main_v2 : S4096x14336.Idx → EReal) = m ((c : Thread nD τ).loc main_arg2) := by
  dsimp only [V, hostOps0]; after_results; rfl
theorem V_v3 (c : Dev nD) : (V m c main_v3 : S14336x4096.Idx → EReal) = m ((c : Thread nD τ).loc main_arg3) := by
  dsimp only [V, hostOps0]; after_results; rfl

/-! ## The blocks at a point -/

/-- The input block at point t: rows 512·(t / 56) … of the input, all 4096 features. -/
theorem blk0_apply (c : Dev nD) (t : Fin cfg0.N) (p : Fin 512) (d : Fin 4096) :
    iblk m c 0 t (ix2 p d) = X m c (512 * (t.val / 56) + p.val) d.val := by
  obtain ⟨e0, e1, -⟩ := idx_in t
  show V m c main_v0 (((cfg0.win 0).blk t).view.emb (ix2 p d)) = _
  rw [V_v0]
  refine (rd_of (A := 4096) (B := 4096) _ _ _ _ ?_ ?_).symm
  · show win0_0.index t (0 : Fin 2) * 512 + 1 * p.val = _
    rw [e0]; omega
  · show win0_0.index t (1 : Fin 2) * 4096 + 1 * d.val = _
    rw [e1]; omega

/-- The gate-weight tile at point t: all 4096 features, hidden units 256·(t % 56) … -/
theorem blk1_apply (c : Dev nD) (t : Fin cfg0.N) (d : Fin 4096) (j : Fin 256) :
    iblk m c 1 t (ix2 d j) = Wg m c d.val (256 * (t.val % 56) + j.val) := by
  obtain ⟨-, -, e0, e1, -⟩ := idx_in t
  show V m c main_v1 (((cfg0.win 1).blk t).view.emb (ix2 d j)) = _
  rw [V_v1]
  refine (rd_of (A := 4096) (B := 14336) _ _ _ _ ?_ ?_).symm
  · show win0_1.index t (0 : Fin 2) * 4096 + 1 * d.val = _
    rw [e0]; omega
  · show win0_1.index t (1 : Fin 2) * 256 + 1 * j.val = _
    rw [e1]; omega

/-- The up-weight tile at point t: all 4096 features, hidden units 256·(t % 56) … -/
theorem blk2_apply (c : Dev nD) (t : Fin cfg0.N) (d : Fin 4096) (j : Fin 256) :
    iblk m c 2 t (ix2 d j) = Wu m c d.val (256 * (t.val % 56) + j.val) := by
  obtain ⟨-, -, -, -, e0, e1, -⟩ := idx_in t
  show V m c main_v2 (((cfg0.win 2).blk t).view.emb (ix2 d j)) = _
  rw [V_v2]
  refine (rd_of (A := 4096) (B := 14336) _ _ _ _ ?_ ?_).symm
  · show win0_2.index t (0 : Fin 2) * 4096 + 1 * d.val = _
    rw [e0]; omega
  · show win0_2.index t (1 : Fin 2) * 256 + 1 * j.val = _
    rw [e1]; omega

/-- The down-weight tile at point t: hidden units 256·(t % 56) …, all 4096 output columns. -/
theorem blk3_apply (c : Dev nD) (t : Fin cfg0.N) (j : Fin 256) (q : Fin 4096) :
    iblk m c 3 t (ix2 j q) = Wd m c (256 * (t.val % 56) + j.val) q.val := by
  obtain ⟨-, -, -, -, -, -, e0, e1⟩ := idx_in t
  show V m c main_v3 (((cfg0.win 3).blk t).view.emb (ix2 j q)) = _
  rw [V_v3]
  refine (rd_of (A := 14336) (B := 4096) _ _ _ _ ?_ ?_).symm
  · show win0_3.index t (0 : Fin 2) * 256 + 1 * j.val = _
    rw [e0]; omega
  · show win0_3.index t (1 : Fin 2) * 4096 + 1 * q.val = _
    rw [e1]; omega

end Cert.Blocks

end
-- ==== Proof.Accumulated.lean ====
/-
  The output array after the whole run, entry by entry.

  The 448 grid points fall into 8 runs of 56 consecutive points, one run per tile of 512 token rows. Within a run
  the output block stays in place: the run's first point stores zeros and adds its hidden tile's part of the down
  projection, every later point adds its own tile's part to what the point before left, and the run's last point
  writes the block back. So after point 56·r + s of run r the block's entry (p, q) holds

      0 + Σ_{s' ≤ s} tile (512·r + p) q s',

  the parts of the hidden tiles 0 … s for token row 512·r + p and output column q. The block written back is the
  one after s = 55, and the 8 written blocks tile the [4096, 4096] array, entry (P, Q) of the array lying in run
  P / 512 at place (P % 512, Q). Hence the array's entry (P, Q) is  0 + Σ_{s < 56} tile P Q s,  which is the whole
  down projection  Σ_{f < 14336} hid P f · Wd f Q  regrouped by tiles — a regrouping of a finite sum, valid on the
  extended reals without any finiteness of the inputs.
-/
import proofs.«106914_j45887430590500_2_alg».proof.Proof.Gen.KernelIdeal.Value
import proofs.«106914_j45887430590500_2_alg».proof.Proof.KernelAt
import proofs.«106914_j45887430590500_2_alg».proof.Proof.Blocks

noncomputable section

namespace Cert.Accumulated

open Cert.KernelIdeal Cert.KernelIdeal.Gen Idealize.ShloMosaic Idealize.ShloMosaic.TcCoe Idealize.SL.Sem
open Idealize.ShloMosaic.ValueIdx Cert.Swiglu Cert.Blocks Cert.KernelAt

/-- One hidden tile's part of the down projection, over blocks known entry by entry: if the input block's row p is
    row P of X, and the three weight tiles are the columns (rows, for the down weights) 256·s … 256·s + 255 of
    Wg, Wu and Wd, then the body's sum over the tile's 256 units at entry (p, q) is `tile P q s`. -/
theorem tile_of_blocks (X Wg Wu Wd : ℕ → ℕ → EReal) (P s : ℕ)
    (x0 : FVec Ideal S512x4096 .bf16) (x1 x2 : FVec Ideal S4096x256 .bf16) (x3 : FVec Ideal S256x4096 .bf16)
    (p : Fin 512) (q : Fin 4096)
    (h0 : ∀ d : Fin 4096, x0 (ix2 p d) = X P d.val)
    (h1 : ∀ (d : Fin 4096) (j : Fin 256), x1 (ix2 d j) = Wg d.val (256 * s + j.val))
    (h2 : ∀ (d : Fin 4096) (j : Fin 256), x2 (ix2 d j) = Wu d.val (256 * s + j.val))
    (h3 : ∀ j : Fin 256, x3 (ix2 j q) = Wd (256 * s + j.val) q.val) :
    ∑ j : Fin 256,
        ((∑ d : Fin 4096, x0 (ix2 p d) * x1 (ix2 d j)) * Ideal.logistic (∑ d : Fin 4096, x0 (ix2 p d) * x1 (ix2 d j))
          * (∑ d : Fin 4096, x0 (ix2 p d) * x2 (ix2 d j))) * x3 (ix2 j q)
      = tile X Wg Wu Wd P q.val s := by
  have hg : ∀ j : Fin 256, ∑ d : Fin 4096, x0 (ix2 p d) * x1 (ix2 d j) = gate X Wg P (256 * s + j.val) := fun j => by
    unfold gate
    rw [Finset.sum_range]
    exact Finset.sum_congr rfl fun d _ => by rw [h0 d, h1 d j]
  have hu : ∀ j : Fin 256, ∑ d : Fin 4096, x0 (ix2 p d) * x2 (ix2 d j) = up X Wu P (256 * s + j.val) := fun j => by
    unfold up
    rw [Finset.sum_range]
    exact Finset.sum_congr rfl fun d _ => by rw [h0 d, h2 d j]
  unfold tile hid
  rw [Finset.sum_range]
  exact Finset.sum_congr rfl fun j _ => by rw [hg j, hu j, h3 j]

variable (m : (ℓ : Loc nD τ sig) → Buf (Elt Ideal) ℓ)

/-- What grid point n adds at entry y of the output block: the part of hidden tile n % 56 for token row
    512·(n / 56) + y₀ and output column y₁. -/
def part (c : Dev nD) (n : ℕ) (y : S512x4096.Idx) : EReal :=
  tile (X m c) (Wg m c) (Wu m c) (Wd m c) (512 * (n / 56) + (y 0).val) (y 1).val (n % 56)

/-- The accumulating store at point t over the point's blocks: what the block held plus the point's part. -/
theorem body_apply (c : Dev nD) (t : Fin cfg0.N) (acc : FVec Ideal S512x4096 .f32) (y : S512x4096.Idx) :
    k0_pay2 (F := Ideal) (iblk m c 0 t) (iblk m c 1 t) (iblk m c 2 t) acc (iblk m c 3 t) y
      = acc y + part m c t.val y := by
  obtain ⟨p, q, rfl⟩ : ∃ (p : Fin 512) (q : Fin 4096), y = ix2 p q := ⟨y 0, y 1, eq_ix2 y⟩
  refine (pay2_apply (iblk m c 0 t) (iblk m c 1 t) (iblk m c 2 t) acc (iblk m c 3 t) p q).trans ?_
  refine congrArg (acc (ix2 p q) + ·) ?_
  exact tile_of_blocks (X m c) (Wg m c) (Wu m c) (Wd m c) (512 * (t.val / 56) + p.val) (t.val % 56)
    (iblk m c 0 t) (iblk m c 1 t) (iblk m c 2 t) (iblk m c 3 t) p q
    (fun d => blk0_apply m c t p d) (fun d j => blk1_apply m c t d j) (fun d j => blk2_apply m c t d j)
    (fun j => blk3_apply m c t j q)

/-- Entry (P, Q) of the output array after the run is the down projection of the hidden activations of token P. -/
theorem final_apply (c : Dev nD) (i : S4096x4096.Idx) :
    Value.G4 m c i = out (X m c) (Wg m c) (Wu m c) (Wd m c) (i 0).val (i 1).val := by
  have hi0 : (i 0).val < 4096 := (i 0).isLt
  have hi1 : (i 1).val < 4096 := (i 1).isLt
  have hN : cfg0.N = 448 := N_0
  have hr : Value.run4Of i = (i 0).val / 512 := by
    show 1 * ((i 0).val / 512 - 0) + 1 * ((i 1).val / 4096 - 0) = _
    omega
  have hlt : 56 * Value.run4Of i + 55 < cfg0.N := by rw [hr, hN]; omega
  unfold Value.G4
  rw [dif_pos hlt]
  refine (Pipeline.accAt_add_apply (ι := S512x4096.Idx) (β := EReal) (Value.reset4 m c) (Value.step4 m c)
    (fun _ => 0) (part m c) (56 * Value.run4Of i) 55
    (fun h y => (body_apply m c ⟨56 * Value.run4Of i, h⟩ (k0_pay1 (F := Ideal)) y).trans
      (congrArg (· + part m c (56 * Value.run4Of i) y) (pay1_apply y)))
    (fun n h acc y _ _ => body_apply m c ⟨n, h⟩ acc y)
    55 le_rfl hlt (Value.loc4Of i)).trans ?_
  rw [out_eq_tiles, show (55 : ℕ) + 1 = 56 from rfl]
  refine congrArg ((0 : EReal) + ·) (Finset.sum_congr rfl fun s hs => ?_)
  have hs' : s < 56 := Finset.mem_range.mp hs
  have e1 : 512 * ((56 * Value.run4Of i + s) / 56) + (Value.loc4Of i 0).val = (i 0).val := by
    show 512 * ((56 * Value.run4Of i + s) / 56) + (i 0).val % 512 = (i 0).val
    rw [hr]; omega
  have e2 : (Value.loc4Of i 1).val = (i 1).val := by
    show (i 1).val % 4096 = (i 1).val
    omega
  have e3 : (56 * Value.run4Of i + s) % 56 = s := by omega
  show tile (X m c) (Wg m c) (Wu m c) (Wd m c) (512 * ((56 * Value.run4Of i + s) / 56) + (Value.loc4Of i 0).val)
    (Value.loc4Of i 1).val ((56 * Value.run4Of i + s) % 56) = _
  rw [e1, e2, e3]

end Cert.Accumulated

end
-- ==== Proof.lean ====
/-
  A gated MLP: out = (silu(x·Wg) ⊙ (x·Wu)) · Wd, silu(g) = g · logistic g, over the extended reals.

  The kernel walks a grid of 8 token tiles × 56 hidden tiles. At each point it forms the [512, 256] block of hidden
  activations of its token tile and hidden tile and adds that block's product with the matching 256 rows of Wd into
  an output block that stays in place over the 56 hidden tiles of a token tile (zeroed at the first, written back
  after the last). The reference forms the whole [4096, 14336] array of hidden activations and contracts it with Wd
  in one product. Entry (P, Q) of the kernel's result is therefore 0 + Σ_{s < 56} Σ_{j < 256} hid P (256·s + j) ·
  Wd (256·s + j) Q, and of the reference's Σ_{f < 14336} hid P f · Wd f Q, with the same hid P f = gate · logistic
  gate · up on both sides (the reference spells the logistic as 1 / (1 + e^(-g)); a change of float format is the
  identity at the ideal values). The two are one finite sum grouped two ways; regrouping needs only that + is
  commutative and associative, which holds with the infinities present, so the finiteness of the inputs is never used.

  The three frames are the generated runs with the result dropped; the idealization rewrote nothing, so the
  preservation claim is trivial.
-/
import proofs.«106914_j45887430590500_2_alg».proof.Defs
import proofs.«106914_j45887430590500_2_alg».proof.Proof.Gen.Kernel.Frame
import proofs.«106914_j45887430590500_2_alg».proof.Proof.Gen.KernelIdeal.Value
import proofs.«106914_j45887430590500_2_alg».proof.Proof.Gen.Pre_finite_inputs
import proofs.«106914_j45887430590500_2_alg».proof.Proof.Gen.ReferenceIdeal.Run
import proofs.«106914_j45887430590500_2_alg».proof.Proof.Gen.ReferenceIdeal.Read
import proofs.«106914_j45887430590500_2_alg».proof.Proof.RefAt
import proofs.«106914_j45887430590500_2_alg».proof.Proof.Accumulated
import Idealize.ShloMosaic.Adequacy
import Idealize.ShloMosaic.Init

noncomputable section

namespace Cert.Proof

open Idealize.ShloMosaic Idealize.SL.Sem

theorem frame_KernelIdeal : frame_KernelIdeal := fun m ρ _ =>
  (θ_run Cert.KernelIdeal.defs _ _).mono (fun _ h c => (h c).2) (Cert.KernelIdeal.Value.run (F := Ideal) m ρ)

theorem frame_ReferenceIdeal : frame_ReferenceIdeal := fun m ρ _ =>
  (θ_run Cert.ReferenceIdeal.defs _ _).mono (fun _ h c => (h c).2) (Cert.ReferenceIdeal.Value.run (F := Ideal) m ρ)

/-- Both programs end with the same array: entry by entry, the reference's single contraction over the 14336 hidden
    units and the kernel's 56 accumulated tile contractions are the same down projection of the same activations. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  funext i
  refine (congrFun (Cert.ReferenceIdeal.Read.val_main_v4_eq _ _ _ _) i).trans ?_
  exact (Cert.RefAt.out_at _ _ _ _ i).trans (Cert.Accumulated.final_apply m c i).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
